-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : IVec S2x3200000 32) (main_arg1 : FVec F S3200000 .f32) (main_arg2 : FVec F S100000x64 .f32) (main_arg3 : FVec F S64x64 .f32) (main_arg4 : FVec F S64 .f32) (main_arg5 : FVec F S64x32 .f32) (main_arg6 : FVec F S32 .f32) : IVec S_ 1 :=
  let main_v0 : FVec F S3200000 .f32 := Host.absf main_arg1
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S2x3200000 : Shape := ⟨2, ![2, 3200000]⟩
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 87
  | .vmem => 20
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x32, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x32, .f32⟩
  | .hbm, ⟨78, _⟩ => ⟨S3300000x1, .f32⟩
  | .hbm, ⟨79, _⟩ => ⟨S3300000x32, .f32⟩
  | .hbm, ⟨80, _⟩ => ⟨S3300000x32, .f32⟩
  | .hbm, ⟨81, _⟩ => ⟨S_, .f32⟩
  | .hbm, ⟨82, _⟩ => ⟨S100000x32, .f32⟩
  | .hbm, ⟨83, _⟩ => ⟨S3300000x1, .i32⟩
  | .hbm, ⟨84, _⟩ => ⟨S100000x32, .f32⟩
  | .hbm, ⟨85, _⟩ => ⟨S1x32, .f32⟩
  | .hbm, ⟨86, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x3200000 : Shape := ⟨2, ![2, 3200000]⟩
abbrev S3200000 : Shape := ⟨1, ![3200000]⟩
abbrev S100000x64 : Shape := ⟨2, ![100000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩

abbrev nBuf : Space → Nat
  | .hbm => 102
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x32, .f32⟩
  | .hbm, ⟨82, _⟩ => ⟨S3300000x1, .f32⟩
  | .hbm, ⟨83, _⟩ => ⟨S3300000x32, .f32⟩
  | .hbm, ⟨84, _⟩ => ⟨S3300000x32, .f32⟩
  | .hbm, ⟨85, _⟩ => ⟨S_, .f32⟩
  | .hbm, ⟨86, _⟩ => ⟨S100000x32, .f32⟩
  | .hbm, ⟨87, _⟩ => ⟨S3300000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | .hbm, ⟨100, _⟩ => ⟨S100000x32, .f32⟩
  | .hbm, ⟨101, _⟩ => ⟨S100000x32, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_v0 : Ref sig .tc := ⟨.hbm, 92, rfl⟩
abbrev main_call2_cst : Ref sig .tc := ⟨.hbm, 93, rfl⟩
abbrev main_call2_v1 : Ref sig .tc := ⟨.hbm, 94, rfl⟩
abbrev main_call2_v2 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KRun.lean ====
import proofs.«179540_j13657996001410_1_alg».proof.Proof.Gen.KernelIdeal.Frame

/-!
# The kernel program's run, with its result named

Every weakly fair execution of the kernel program terminates without a fault, leaves the seven argument arrays as
launched, and leaves in the result array what the last of the nine segments of its main function (five stretches of
host operations and four tiled kernel regions) leaves there: the fold of the segments' effects over the launch memory,
read at the result buffer.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments from the launch memory: the final state holds, at every buffer that outlives a region,
    the last boundary's contents; read at the result buffer and at the seven arguments. -/
theorem run_value : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.KRun

end
-- ==== Proof.Spec.lean ====
import proofs.«179540_j13657996001410_1_alg».proof.Proof.Gen.ReferenceIdeal

/-!
# The graph convolution's stages, as functions of whole arrays

Two rounds of normalised message passing over a graph with self-loops added. Each stage below is one composed term of
the host operations both programs run on it, so that a value can be carried through a stage without opening it: the
edge lists with the self-loops appended, the degrees and the per-edge coefficient, the gather–scale–scatter of one round
(on 64 and on 32 features), the bias with the positive part, and the bias with the row normalisation.
-/

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The source node of every edge, followed by the nodes themselves (one self-loop per node): row 0 of the edge list, then 0, 1, … -/
def rowIdx (EI : (⟨S2x3200000, .i32⟩ : BufTy).Contents (Elt F)) :
    (⟨S3300000, .i32⟩ : BufTy).Contents (Elt F) :=
  (concatenate S3300000 0 [⟨S3200000, (shapeCast _ (extractStridedSlice S1x3200000 ![0, 0] EI slices_S2x3200000_S1x3200000_0_0) shapeCasts_S1x3200000_S3200000)⟩, ⟨S100000, (iotaInDim S100000 32 0)⟩] concatenates_S3200000_S100000_S3300000_d0)

/-- The target node of every edge, followed by the nodes themselves: row 1 of the edge list, then 0, 1, … -/
def colIdx (EI : (⟨S2x3200000, .i32⟩ : BufTy).Contents (Elt F)) :
    (⟨S3300000, .i32⟩ : BufTy).Contents (Elt F) :=
  (concatenate S3300000 0 [⟨S3200000, (shapeCast _ (extractStridedSlice S1x3200000 ![1, 0] EI slices_S2x3200000_S1x3200000_1_0) shapeCasts_S1x3200000_S3200000)⟩, ⟨S100000, (iotaInDim S100000 32 0)⟩] concatenates_S3200000_S100000_S3300000_d0)

/-- The weight of every edge, followed by weight one for each self-loop. -/
def ewF (EW : (⟨S3200000, .f32⟩ : BufTy).Contents (Elt F)) :
    (⟨S3300000, .f32⟩ : BufTy).Contents (Elt F) :=
  (concatenate S3300000 0 [⟨S3200000, EW⟩, ⟨S100000, (broadcastInDim S100000 ![] bcast_S_S100000 (constant S_ .f32 0x3F800000#32))⟩] concatenates_S3200000_S100000_S3300000_d0)

/-- A node number read as Python reads an index: a negative one counts from the end (the number of nodes is added). -/
def wrapIdx (IX : (⟨S3300000, .i32⟩ : BufTy).Contents (Elt F)) :
    (⟨S3300000, .i32⟩ : BufTy).Contents (Elt F) :=
  (select (cmpi .slt IX (broadcastInDim S3300000 ![] bcast_S_S3300000 (constantI S_ 32 0#32))) (addi IX (broadcastInDim S3300000 ![] bcast_S_S3300000 (constantI S_ 32 100000#32))) IX)

/-- The weighted in-degree of every node: the weights summed per target node. -/
def degOf (I6 : (⟨S3300000, .i32⟩ : BufTy).Contents (Elt F)) (WF : (⟨S3300000, .f32⟩ : BufTy).Contents (Elt F)) :
    (⟨S100000, .f32⟩ : BufTy).Contents (Elt F) :=
  (Host.scatterAdd scatter_S100000_S3300000x1_S3300000_n_0_0_1 (broadcastInDim S100000 ![] bcast_S_S100000 (constant S_ .f32 0x00000000#32)) (broadcastInDim S3300000x1 ![0] bcast_S3300000_S3300000x1_0 I6) WF)

/-- One over the square root of a positive degree, zero for any other. -/
def invSqrtDeg (DG : (⟨S100000, .f32⟩ : BufTy).Contents (Elt F)) :
    (⟨S100000, .f32⟩ : BufTy).Contents (Elt F) :=
  (select (cmpf .ogt DG (broadcastInDim S100000 ![] bcast_S_S100000 (constant S_ .f32 0x00000000#32))) (Host.rsqrt DG) (broadcastInDim S100000 ![] bcast_S_S100000 (id (constant S_ .f32 0x00000000#32))))

/-- The symmetric normalisation of every edge: the source's factor times the weight times the target's factor. -/
def edgeCoef (DS : (⟨S100000, .f32⟩ : BufTy).Contents (Elt F)) (WR : (⟨S3300000, .i32⟩ : BufTy).Contents (Elt F)) (WF : (⟨S3300000, .f32⟩ : BufTy).Contents (Elt F)) (WC : (⟨S3300000, .i32⟩ : BufTy).Contents (Elt F)) :
    (⟨S3300000, .f32⟩ : BufTy).Contents (Elt F) :=
  (mulf (mulf (Host.gather gather_S100000_S3300000x1_S3300000_n_0_n_n_0_1_1 DS (broadcastInDim S3300000x1 ![0] bcast_S3300000_S3300000x1_0 WR)) WF) (Host.gather gather_S100000_S3300000x1_S3300000_n_0_n_n_0_1_1 DS (broadcastInDim S3300000x1 ![0] bcast_S3300000_S3300000x1_0 WC)))

/-- Message passing on 64 features: every edge takes its source's row, scales it by the edge's coefficient, and the rows are summed per target node. -/
def agg64 (HH : (⟨S100000x64, .f32⟩ : BufTy).Contents (Elt F)) (I6 : (⟨S3300000, .i32⟩ : BufTy).Contents (Elt F)) (WR : (⟨S3300000, .i32⟩ : BufTy).Contents (Elt F)) (NM : (⟨S3300000, .f32⟩ : BufTy).Contents (Elt F)) :
    (⟨S100000x64, .f32⟩ : BufTy).Contents (Elt F) :=
  (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 I6) (mulf (Host.gather gather_S100000x64_S3300000x1_S3300000x64_1_0_n_n_0_1_164 HH (broadcastInDim S3300000x1 ![0] bcast_S3300000_S3300000x1_0 WR)) (broadcastInDim S3300000x64 ![0, 1] bcast_S3300000x1_S3300000x64_0_1 (broadcastInDim S3300000x1 ![0] bcast_S3300000_S3300000x1_0 NM))))

/-- A row of biases added to every row, then the positive part. -/
def biasRelu (XX : (⟨S100000x64, .f32⟩ : BufTy).Contents (Elt F)) (BB : (⟨S1x64, .f32⟩ : BufTy).Contents (Elt F)) :
    (⟨S100000x64, .f32⟩ : BufTy).Contents (Elt F) :=
  (maximumf (addf XX (broadcastInDim S100000x64 ![0, 1] bcast_S1x64_S100000x64_0_1 BB)) (broadcastInDim S100000x64 ![] bcast_S_S100000x64 (constant S_ .f32 0x00000000#32)))

/-- Message passing on 32 features. -/
def agg32 (HH : (⟨S100000x32, .f32⟩ : BufTy).Contents (Elt F)) (I6 : (⟨S3300000, .i32⟩ : BufTy).Contents (Elt F)) (WR : (⟨S3300000, .i32⟩ : BufTy).Contents (Elt F)) (NM : (⟨S3300000, .f32⟩ : BufTy).Contents (Elt F)) :
    (⟨S100000x32, .f32⟩ : BufTy).Contents (Elt F) :=
  (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 I6) (mulf (Host.gather gather_S100000x32_S3300000x1_S3300000x32_1_0_n_n_0_1_132 HH (broadcastInDim S3300000x1 ![0] bcast_S3300000_S3300000x1_0 WR)) (broadcastInDim S3300000x32 ![0, 1] bcast_S3300000x1_S3300000x32_0_1 (broadcastInDim S3300000x1 ![0] bcast_S3300000_S3300000x1_0 NM))))

/-- A row of biases added to every row, then every row divided by its Euclidean length, the length taken no smaller than a fixed tiny constant. -/
def biasNormalize (XX : (⟨S100000x32, .f32⟩ : BufTy).Contents (Elt F)) (BB : (⟨S1x32, .f32⟩ : BufTy).Contents (Elt F)) :
    (⟨S100000x32, .f32⟩ : BufTy).Contents (Elt F) :=
  (Host.divf (addf XX (broadcastInDim S100000x32 ![0, 1] bcast_S1x32_S100000x32_0_1 BB)) (broadcastInDim S100000x32 ![0, 1] bcast_S100000x1_S100000x32_0_1 (maximumf (Host.sqrt (broadcastInDim S100000x1 ![0] bcast_S100000_S100000x1_0 (Host.reduceAdd (mulf (addf XX (broadcastInDim S100000x32 ![0, 1] bcast_S1x32_S100000x32_0_1 BB)) (addf XX (broadcastInDim S100000x32 ![0, 1] bcast_S1x32_S100000x32_0_1 BB))) (constant S_ .f32 0x00000000#32) reducesTo_S100000x32_S100000_d1 h_S_))) (broadcastInDim S100000x1 ![] bcast_S_S100000x1 (constant S_ .f32 0x2B8CBCCC#32)))))

end Cert.ReferenceIdeal.Spec

end
-- ==== Proof.KHost.lean ====
import proofs.«179540_j13657996001410_1_alg».proof.Proof.Gen.KernelIdeal.Frame
import proofs.«179540_j13657996001410_1_alg».proof.Proof.Spec
import Idealize.ShloMosaic.Lib.StableHlo.Run

/-!
# The host stretches of the kernel program, read at the buffers the regions and the later stretches use

Between its four tiled regions the kernel program runs the same host operations as the reference: it builds the edge
lists with self-loops and the per-edge coefficient before the first region, and runs one round of message passing
(gather, scale, scatter-add) before the second and before the fourth. Each lemma below reads one buffer after one
stretch as the named stage of the buffers the stretch started from; the buffers a stretch does not write keep their
contents.
-/

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.Spec

variable {F : FTy → Type} [FloatOps F]
variable (m : (ℓ : Loc nD τ sig) → Buf (Elt F) ℓ) (ρ : Dev nD → PrngReg) (c : Dev nD)

/-! ## Before the first region -/

theorem pre_rowIdx : W3 m ρ c (Proc.devRef .tc main_v5) = rowIdx (m ((c : Thread nD τ).loc main_arg0)) := by
  show StableHlo.after hostOps0_2 (StableHlo.after hostOps0_1 (StableHlo.after hostOps0 (W0 m ρ c))) (Proc.devRef .tc main_v5) = _
  after_results_simp
  rfl

theorem pre_colIdx : W3 m ρ c (Proc.devRef .tc main_v6) = colIdx (m ((c : Thread nD τ).loc main_arg0)) := by
  show StableHlo.after hostOps0_2 (StableHlo.after hostOps0_1 (StableHlo.after hostOps0 (W0 m ρ c))) (Proc.devRef .tc main_v6) = _
  after_results_simp
  rfl

theorem pre_coef : W3 m ρ c (Proc.devRef .tc main_v31)
    = edgeCoef (invSqrtDeg (degOf (colIdx (m ((c : Thread nD τ).loc main_arg0))) (ewF (m ((c : Thread nD τ).loc main_arg1))))) (wrapIdx (rowIdx (m ((c : Thread nD τ).loc main_arg0))))
        (ewF (m ((c : Thread nD τ).loc main_arg1))) (wrapIdx (colIdx (m ((c : Thread nD τ).loc main_arg0)))) := by
  show StableHlo.after hostOps0_2 (StableHlo.after hostOps0_1 (StableHlo.after hostOps0 (W0 m ρ c))) (Proc.devRef .tc main_v31) = _
  after_results_simp
  rfl

theorem pre_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem pre_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem pre_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem pre_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

theorem pre_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

/-! ## Between the first and the second region: one round of message passing on 64 features -/

theorem mid_agg : W5 m ρ c (Proc.devRef .tc main_v45)
    = agg64 (W4 m ρ c (Proc.devRef .tc main_v32)) (W4 m ρ c (Proc.devRef .tc main_v6)) (wrapIdx (W4 m ρ c (Proc.devRef .tc main_v5))) (W4 m ρ c (Proc.devRef .tc main_v31)) := by
  show StableHlo.after hostOps1 (W4 m ρ c) (Proc.devRef .tc main_v45) = _
  after_results_simp
  rfl

/-- The bias vector laid out as one row. -/
theorem mid_bias : W5 m ρ c (Proc.devRef .tc main_v46)
    = shapeCast S1x64 (W4 m ρ c (Proc.devRef .tc main_arg4)) shapeCasts_S64_S1x64 := by
  show StableHlo.after hostOps1 (W4 m ρ c) (Proc.devRef .tc main_v46) = _
  after_results_simp
  rfl

theorem mid_keep_v5 : W5 m ρ c (Proc.devRef .tc main_v5) = W4 m ρ c (Proc.devRef .tc main_v5) := by
  show StableHlo.after hostOps1 (W4 m ρ c) (Proc.devRef .tc main_v5) = _
  after_results_simp

theorem mid_keep_v6 : W5 m ρ c (Proc.devRef .tc main_v6) = W4 m ρ c (Proc.devRef .tc main_v6) := by
  show StableHlo.after hostOps1 (W4 m ρ c) (Proc.devRef .tc main_v6) = _
  after_results_simp

theorem mid_keep_v31 : W5 m ρ c (Proc.devRef .tc main_v31) = W4 m ρ c (Proc.devRef .tc main_v31) := by
  show StableHlo.after hostOps1 (W4 m ρ c) (Proc.devRef .tc main_v31) = _
  after_results_simp

theorem mid_keep_arg5 : W5 m ρ c (Proc.devRef .tc main_arg5) = W4 m ρ c (Proc.devRef .tc main_arg5) := by
  show StableHlo.after hostOps1 (W4 m ρ c) (Proc.devRef .tc main_arg5) = _
  after_results_simp

theorem mid_keep_arg6 : W5 m ρ c (Proc.devRef .tc main_arg6) = W4 m ρ c (Proc.devRef .tc main_arg6) := by
  show StableHlo.after hostOps1 (W4 m ρ c) (Proc.devRef .tc main_arg6) = _
  after_results_simp

/-! ## Between the third and the fourth region: one round of message passing on 32 features -/

theorem last_agg : W8 m ρ c (Proc.devRef .tc main_v61)
    = agg32 (W7 m ρ c (Proc.devRef .tc main_v48)) (W7 m ρ c (Proc.devRef .tc main_v6)) (wrapIdx (W7 m ρ c (Proc.devRef .tc main_v5))) (W7 m ρ c (Proc.devRef .tc main_v31)) := by
  show StableHlo.after hostOps3 (W7 m ρ c) (Proc.devRef .tc main_v61) = _
  after_results_simp
  rfl

/-- The bias vector laid out as one row. -/
theorem last_bias : W8 m ρ c (Proc.devRef .tc main_v62)
    = shapeCast S1x32 (W7 m ρ c (Proc.devRef .tc main_arg6)) shapeCasts_S32_S1x32 := by
  show StableHlo.after hostOps3 (W7 m ρ c) (Proc.devRef .tc main_v62) = _
  after_results_simp
  rfl

end Cert.KernelIdeal.KHost

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«179540_j13657996001410_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.RegionMM.lean ====
import proofs.«179540_j13657996001410_1_alg».proof.Proof.Gen.KernelIdeal.Frame
import proofs.«179540_j13657996001410_1_alg».proof.Proof.LibMatmulRows
import Idealize.ShloMosaic.Lib.ValueIdx
import Idealize.ShloMosaic.Lib.Pipeline.Value
import Idealize.ShloMosaic.PureOps.Ideal.Laws

/-!
# The two row-tiled matrix products, as whole arrays

Regions 0 and 2 of the kernel program compute a product `A · B` of a tall left operand `A : [100000, 64]` with a small
right operand `B` (`[64, 64]` in region 0, `[64, 32]` in region 2) in ten steps: step `t` reads rows
`10000·t … 10000·t + 9999` of `A` and all of `B`, multiplies them into a zero accumulator, and writes the result as
rows `10000·t … 10000·t + 9999` of the output. Over the extended reals every format change is the identity, so
* the value a step stores is the product of its block of rows with `B` (`pay0_eq`, `pay2_eq`);
* rows `10000·t + p` of `A · B` only read row `10000·t + p` of `A`, so that value is block `t` of the whole product
  (`mmRows_rows`, `flushed0_eq`, `flushed2_eq`);
* row `r` of the output lies in the block of step `r / 10000`, so the ten blocks cover the output (`cover0`, `cover2`);
hence after the region the output array IS the whole product (`arr0`, `arr2`), whatever the buffers held when the
region was entered (`V`).
-/

noncomputable section

open scoped BigOperators

namespace Cert.KernelIdeal.RegionMM

open Cert.KernelIdeal Cert.KernelIdeal.Gen Idealize.ShloMosaic Idealize.ShloMosaic.TcCoe Idealize.SL.Sem Cert.LibMatmulRows
open Idealize.ShloMosaic.ValueIdx
open Idealize.ShloMosaic.Pipeline (Dat)

/-- The zero offsets of a rank-2 rectangle, as the constant function. -/
theorem zeros2 : (![0, 0] : Fin 2 → Nat) = fun _ => 0 := funext fun a => by fin_cases a <;> rfl

/-! ## The algebra: a block of rows of a product -/

/-- ROWS OF A PRODUCT. If `x0` is the rows `o … o + n - 1` of `A` and `x1` is `B`, then entry `(p, q)` of `x0 · x1` is entry
    `(o + p, q)` of `A · B`: row `o + p` of the product reads row `o + p` of `A` and nothing else of it. -/
theorem mmRows_rows {N K M n : Nat} (A : (⟨2, ![N, K]⟩ : Shape).Idx → EReal) (B : (⟨2, ![K, M]⟩ : Shape).Idx → EReal)
    (x0 : (⟨2, ![n, K]⟩ : Shape).Idx → EReal) (x1 : (⟨2, ![K, M]⟩ : Shape).Idx → EReal) (o : Nat)
    (h0 : ∀ (p : Fin n) (k : Fin K) (r : Fin N), r.val = o + p.val → x0 (ix2 p k) = A (ix2 r k))
    (h1 : x1 = B)
    (j : (⟨2, ![n, M]⟩ : Shape).Idx) (i : (⟨2, ![N, M]⟩ : Shape).Idx)
    (hi0 : (i 0).val = o + (j 0).val) (hi1 : (i 1).val = (j 1).val) :
    mmRows x0 x1 j = mmRows A B i := by
  obtain ⟨p, q, rfl⟩ : ∃ (p : Fin n) (q : Fin M), j = ix2 p q := ⟨j 0, j 1, eq_ix2 j⟩
  obtain ⟨r, s, rfl⟩ : ∃ (r : Fin N) (s : Fin M), i = ix2 r s := ⟨i 0, i 1, eq_ix2 i⟩
  have hr : r.val = o + p.val := hi0
  have hqs : s = q := Fin.ext hi1
  subst hqs h1
  rw [mmRows_apply, mmRows_apply]
  exact Finset.sum_congr rfl fun k _ => by rw [h0 p k r hr]

/-! ## Region 0: `[100000, 64] · [64, 64]` -/

/-- What a step stores: over the extended reals the two narrowings are the identity, and a product into the zero
    accumulator is the product. -/
theorem pay0_eq (x0 : Vec Ideal S10000x64 .f32) (x1 : Vec Ideal S64x64 .f32) :
    k0_pay1 x0 x1 = mmRows (N := 10000) (K := 64) (M := 64) x0 x1 := by
  unfold k0_pay1
  exact matmulRows_eq dot_S10000x64_S64x64_S10000x64_1_0_0_1_n_n_wf none x0 x1

/-- The block indices of the three windows at step `t`: the left operand's and the output's row block is `t`, every
    column block is 0, and the right operand's block is always `(0, 0)` (decided over the ten steps). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at step `t` is rows `10000·t …` of the array. -/
theorem iblk0_0_apply (V : (c : Dev nD) → (b : Ref sig .tc) → Buf (Elt Ideal) ((c : Thread nD τ).loc b)) (c : Dev nD)
    (t : Fin cfg0.N) (x : S10000x64.Idx) (k : S100000x64.Idx)
    (hk0 : (k 0).val = 10000 * t.val + (x 0).val) (hk1 : (k 1).val = (x 1).val) :
    (iblk0 (F := Ideal) V c 0 t : Vec Ideal S10000x64 .f32) x = (V c main_arg2 : S100000x64.Idx → EReal) k := by
  obtain ⟨e0, e1, -⟩ := idx_facts0 t
  unfold iblk0
  rw [View.read_apply]
  show V c main_arg2 _ = V c main_arg2 _
  congr 1
  funext a
  apply Fin.ext
  match a with
  | ⟨0, _⟩ => show win0_0.index t (0 : Fin 2) * 10000 + 1 * (x 0).val = (k 0).val; omega
  | ⟨1, _⟩ => show win0_0.index t (1 : Fin 2) * 64 + 1 * (x 1).val = (k 1).val; omega

/-- The right operand's block at every step is the whole array. -/
theorem iblk0_1_eq (V : (c : Dev nD) → (b : Ref sig .tc) → Buf (Elt Ideal) ((c : Thread nD τ).loc b)) (c : Dev nD)
    (t : Fin cfg0.N) :
    (iblk0 (F := Ideal) V c 1 t : Vec Ideal S64x64 .f32) = (V c main_arg3 : S64x64.Idx → EReal) := by
  obtain ⟨-, -, e0, e1, -⟩ := idx_facts0 t
  funext x
  unfold iblk0
  rw [View.read_apply]
  show V c main_arg3 _ = V c main_arg3 _
  congr 1
  funext a
  apply Fin.ext
  match a with
  | ⟨0, _⟩ => show win0_1.index t (0 : Fin 2) * 64 + 1 * (x 0).val = (x 0).val; omega
  | ⟨1, _⟩ => show win0_1.index t (1 : Fin 2) * 64 + 1 * (x 1).val = (x 1).val; omega

/-- WHAT STEP `t` WRITES BACK is block `t` of the whole product of the arrays as the region finds them. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (mmRows (N := 100000) (K := 64) (M := 64) (V c main_arg2) (V c main_arg3)) := by
  show (cfg0.win 2).cut (grid0.coords t) ((dat0 (F := Ideal) V c).after 2 t) = _
  rw [after0_2]
  unfold out0_2
  rw [View.canon_unit_zero zeros2]
  simp only [View.ld_unit_zero (S := S10000x64) zeros2, View.ld_unit_zero (S := S64x64) zeros2]
  rw [pay0_eq]
  obtain ⟨-, -, -, -, e0, e1⟩ := idx_facts0 t
  funext j
  show mmRows (N := 10000) (K := 64) (M := 64) (iblk0 (F := Ideal) V c 0 t) (iblk0 (F := Ideal) V c 1 t) j
    = mmRows (N := 100000) (K := 64) (M := 64) (V c main_arg2) (V c main_arg3) (((cfg0.win 2).blk t).view.emb j)
  refine mmRows_rows (N := 100000) (K := 64) (M := 64) (n := 10000) (V c main_arg2) (V c main_arg3)
    (iblk0 (F := Ideal) V c 0 t) (iblk0 (F := Ideal) V c 1 t) (10000 * t.val)
    (fun p k r hr => iblk0_0_apply V c t (ix2 p k) (ix2 r k) hr rfl) (iblk0_1_eq V c t) j _ ?_ ?_
  · show win0_2.index t (0 : Fin 2) * 10000 + 1 * (j 0).val = 10000 * t.val + (j 0).val; omega
  · show win0_2.index t (1 : Fin 2) * 64 + 1 * (j 1).val = (j 1).val; omega

/-- An index of the output is in step `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- THE BLOCKS COVER THE OUTPUT: row `r` is in the block of step `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 :=
    ⟨⟨(i 0).val / 10000, (show (i 0).val / 10000 < 10 by omega).trans_eq hN.symm⟩, rfl⟩
  obtain ⟨-, -, -, -, e0, e1⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT OF REGION 0 after the region: the whole product of the two arrays as the region finds them. -/
theorem arr0 (V : (c : Dev nD) → (b : Ref sig .tc) → Buf (Elt Ideal) ((c : Thread nD τ).loc b)) (c : Dev nD) :
    (dat0 (F := Ideal) V c).arrAt 2 cfg0.N = mmRows (N := 100000) (K := 64) (M := 64) (V c main_arg2) (V c main_arg3) :=
  (dat0 (F := Ideal) V c).arrAt_eq_of_cover 2 (mmRows (N := 100000) (K := 64) (M := 64) (V c main_arg2) (V c main_arg3))
    (fun t _ => flushed0_eq V c t) cover0

/-! ## Region 2: `[100000, 64] · [64, 32]` -/

/-- What a step stores: a reshape to the same shape is the identity, over the extended reals the two narrowings are
    the identity, and a product into the zero accumulator is the product. -/
theorem pay2_eq (x0 : Vec Ideal S10000x64 .f32) (x1 : Vec Ideal S64x32 .f32) :
    k2_pay1 x0 x1 = mmRows (N := 10000) (K := 64) (M := 32) x0 x1 := by
  unfold k2_pay1
  simp only [shapeCast_self]
  exact matmulRows_eq dot_S10000x64_S64x32_S10000x32_1_0_0_1_n_n_wf none x0 x1

/-- The block indices of the three windows at step `t`: the left operand's and the output's row block is `t`, every
    column block is 0, and the right operand's block is always `(0, 0)` (decided over the ten steps). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at step `t` is rows `10000·t …` of the array. -/
theorem iblk2_0_apply (V : (c : Dev nD) → (b : Ref sig .tc) → Buf (Elt Ideal) ((c : Thread nD τ).loc b)) (c : Dev nD)
    (t : Fin cfg2.N) (x : S10000x64.Idx) (k : S100000x64.Idx)
    (hk0 : (k 0).val = 10000 * t.val + (x 0).val) (hk1 : (k 1).val = (x 1).val) :
    (iblk2 (F := Ideal) V c 0 t : Vec Ideal S10000x64 .f32) x = (V c main_v47 : S100000x64.Idx → EReal) k := by
  obtain ⟨e0, e1, -⟩ := idx_facts2 t
  unfold iblk2
  rw [View.read_apply]
  show V c main_v47 _ = V c main_v47 _
  congr 1
  funext a
  apply Fin.ext
  match a with
  | ⟨0, _⟩ => show win2_0.index t (0 : Fin 2) * 10000 + 1 * (x 0).val = (k 0).val; omega
  | ⟨1, _⟩ => show win2_0.index t (1 : Fin 2) * 64 + 1 * (x 1).val = (k 1).val; omega

/-- The right operand's block at every step is the whole array. -/
theorem iblk2_1_eq (V : (c : Dev nD) → (b : Ref sig .tc) → Buf (Elt Ideal) ((c : Thread nD τ).loc b)) (c : Dev nD)
    (t : Fin cfg2.N) :
    (iblk2 (F := Ideal) V c 1 t : Vec Ideal S64x32 .f32) = (V c main_arg5 : S64x32.Idx → EReal) := by
  obtain ⟨-, -, e0, e1, -⟩ := idx_facts2 t
  funext x
  unfold iblk2
  rw [View.read_apply]
  show V c main_arg5 _ = V c main_arg5 _
  congr 1
  funext a
  apply Fin.ext
  match a with
  | ⟨0, _⟩ => show win2_1.index t (0 : Fin 2) * 64 + 1 * (x 0).val = (x 0).val; omega
  | ⟨1, _⟩ => show win2_1.index t (1 : Fin 2) * 32 + 1 * (x 1).val = (x 1).val; omega

/-- WHAT STEP `t` WRITES BACK is block `t` of the whole product of the arrays as the region finds them. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (mmRows (N := 100000) (K := 64) (M := 32) (V c main_v47) (V c main_arg5)) := by
  show (cfg2.win 2).cut (grid2.coords t) ((dat2 (F := Ideal) V c).after 2 t) = _
  rw [after2_2]
  unfold out2_2
  rw [View.canon_unit_zero zeros2]
  simp only [View.ld_unit_zero (S := S10000x64) zeros2, View.ld_unit_zero (S := S64x32) zeros2]
  rw [pay2_eq]
  obtain ⟨-, -, -, -, e0, e1⟩ := idx_facts2 t
  funext j
  show mmRows (N := 10000) (K := 64) (M := 32) (iblk2 (F := Ideal) V c 0 t) (iblk2 (F := Ideal) V c 1 t) j
    = mmRows (N := 100000) (K := 64) (M := 32) (V c main_v47) (V c main_arg5) (((cfg2.win 2).blk t).view.emb j)
  refine mmRows_rows (N := 100000) (K := 64) (M := 32) (n := 10000) (V c main_v47) (V c main_arg5)
    (iblk2 (F := Ideal) V c 0 t) (iblk2 (F := Ideal) V c 1 t) (10000 * t.val)
    (fun p k r hr => iblk2_0_apply V c t (ix2 p k) (ix2 r k) hr rfl) (iblk2_1_eq V c t) j _ ?_ ?_
  · show win2_2.index t (0 : Fin 2) * 10000 + 1 * (j 0).val = 10000 * t.val + (j 0).val; omega
  · show win2_2.index t (1 : Fin 2) * 32 + 1 * (j 1).val = (j 1).val; omega

/-- An index of the output is in step `t`'s block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- THE BLOCKS COVER THE OUTPUT: row `r` is in the block of step `r / 10000`. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 :=
    ⟨⟨(i 0).val / 10000, (show (i 0).val / 10000 < 10 by omega).trans_eq hN.symm⟩, rfl⟩
  obtain ⟨-, -, -, -, e0, e1⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- THE OUTPUT OF REGION 2 after the region: the whole product of the two arrays as the region finds them. -/
theorem arr2 (V : (c : Dev nD) → (b : Ref sig .tc) → Buf (Elt Ideal) ((c : Thread nD τ).loc b)) (c : Dev nD) :
    (dat2 (F := Ideal) V c).arrAt 2 cfg2.N = mmRows (N := 100000) (K := 64) (M := 32) (V c main_v47) (V c main_arg5) :=
  (dat2 (F := Ideal) V c).arrAt_eq_of_cover 2 (mmRows (N := 100000) (K := 64) (M := 32) (V c main_v47) (V c main_arg5))
    (fun t _ => flushed2_eq V c t) cover2

end Cert.KernelIdeal.RegionMM

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Region1.lean ====
import proofs.«179540_j13657996001410_1_alg».proof.Proof.Gen.KernelIdeal.Frame
import proofs.«179540_j13657996001410_1_alg».proof.Proof.Spec
import proofs.«179540_j13657996001410_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The bias-and-positive-part region, as one function of its arrays

The region walks ten blocks of 10000 rows. At each it adds the one row of biases to every row of the block and takes the
positive part, and writes the block back where it came from. So the output array ends as the whole-array stage
"bias, then positive part" of the two input arrays as the region found them: entry (n, q) is
max (X (n, q) + B (0, q)) 0.
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Spec (biasRelu)

theorem hz : (![0, 0] : Fin 2 → Nat) = fun _ => 0 := funext fun a => by fin_cases a <;> rfl

/-- The whole-array stage at an entry. -/
theorem biasRelu_apply (X : FVec Ideal S100000x64 .f32) (B : FVec Ideal S1x64 .f32) (n : Fin 100000) (q : Fin 64) :
    biasRelu (F := Ideal) X B (ix2 n q) = max (X (ix2 n q) + B (ix2 (0 : Fin 1) q)) (Ideal.ofBits .f32 0x00000000#32) := by
  unfold biasRelu
  rw [maximumf_apply, addf_apply, Cert.LibColumnLayout.broadcastInDim_1b_ab_apply,
    broadcastInDim_apply _ _ _ (ix2 n q) ix0 (fun a => a.elim0), constant_apply]

/-- The body's payload at an entry of the block. -/
theorem pay_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- Entry (p, q) of a block's payload against entry (n, q) of the whole-array stage. -/
theorem entry_core (X : FVec Ideal S100000x64 .f32) (B : FVec Ideal S1x64 .f32) (x0 : Vec Ideal S10000x64 .f32) (x1 : Vec Ideal S1x64 .f32)
    (p : Fin 10000) (n : Fin 100000) (q : Fin 64) (h0 : ∀ q : Fin 64, x0 (ix2 p q) = X (ix2 n q))
    (h1 : ∀ q : Fin 64, x1 (ix2 (0 : Fin 1) q) = B (ix2 (0 : Fin 1) q)) :
    k1_pay1 x0 x1 (ix2 p q) = biasRelu (F := Ideal) X B (ix2 n q) := by
  rw [pay_apply, biasRelu_apply, h0, h1]

/-- The region's index maps, decided once over its ten points: the input block and the output block move together down
    the rows, the row of biases stays where it is. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- One entry of a block against one entry of the whole-array stage: equal as soon as the block's entry of the first
    input is the array's entry, the columns agree, and the row of biases is the array's row. -/
theorem entry_eq (X : FVec Ideal S100000x64 .f32) (B : FVec Ideal S1x64 .f32) (x0 : Vec Ideal S10000x64 .f32) (x1 : Vec Ideal S1x64 .f32)
    (j : S10000x64.Idx) (i : S100000x64.Idx) (h0 : ∀ q : Fin 64, x0 (ix2 (j 0) q) = X (ix2 (i 0) q)) (hq : (i 1).val = (j 1).val)
    (h1 : ∀ q : Fin 64, x1 (ix2 (0 : Fin 1) q) = B (ix2 (0 : Fin 1) q)) :
    k1_pay1 x0 x1 j = biasRelu (F := Ideal) X B i := by
  obtain ⟨p, q, rfl⟩ : ∃ (p : Fin 10000) (q : Fin 64), j = ix2 p q := ⟨j 0, j 1, eq_ix2 j⟩
  obtain ⟨n, q', rfl⟩ : ∃ (n : Fin 100000) (q' : Fin 64), i = ix2 n q' := ⟨i 0, i 1, eq_ix2 i⟩
  have hqq : q' = q := Fin.ext hq
  subst hqq
  exact entry_core X B x0 x1 p n q' h0 h1

/-- What a point writes back is its block of the whole-array stage of the two input arrays. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (biasRelu (F := Ideal) (V c main_v45) (V c main_v46)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  refine entry_eq (V c main_v45) (V c main_v46) (iblk1 V c 0 t) (iblk1 V c 1 t) j (((cfg1.win 2).blk t).view.emb j) ?_ ?_ ?_
  · intro q
    show V c main_v45 (((cfg1.win 0).blk t).view.emb (ix2 (j 0) q)) = V c main_v45 (ix2 ((((cfg1.win 2).blk t).view.emb j) 0) q)
    refine congrArg (V c main_v45) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * q.val = q.val; omega
  · show win1_2.index t (1 : Fin 2) * 64 + 1 * (j 1).val = (j 1).val; omega
  · intro q
    show V c main_v46 (((cfg1.win 1).blk t).view.emb (ix2 (0 : Fin 1) q)) = V c main_v46 (ix2 (0 : Fin 1) q)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega

/-- An index of the output array is in a point's block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Row r is in the block of the point that handles rows 10000 * (r / 10000) onwards: the ten blocks cover the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the region is the whole-array stage of the two input arrays as the region found them. -/
theorem arr (V : (c : Dev nD) → (b : Ref sig .tc) → Buf (Elt Ideal) ((c : Thread nD τ).loc b)) (c : Dev nD) :
    (dat1 (F := Ideal) V c).arrAt 2 cfg1.N = biasRelu (F := Ideal) (V c main_v45) (V c main_v46) :=
  (dat1 V c).arrAt_eq_of_cover 2 _ (fun t _ => flushed_eq V c t) cover

end Cert.KernelIdeal.Region1

end
-- ==== Proof.Region3.lean ====
import proofs.«179540_j13657996001410_1_alg».proof.Proof.Gen.KernelIdeal.Frame
import proofs.«179540_j13657996001410_1_alg».proof.Proof.Spec
import proofs.«179540_j13657996001410_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The bias-and-row-normalisation region, as one function of its arrays

The region walks ten blocks of 10000 rows of 32 entries. At each it adds the one row of biases to every row of the
block, and divides every row by its Euclidean length (the square root of the sum of the squares of its 32 entries),
the length taken no smaller than a fixed tiny constant; it writes the block back where it came from. A row's result
only reads that row, so the output array ends as the whole-array stage "bias, then row normalisation" of the two
input arrays as the region found them.
-/

set_option maxRecDepth 16384

noncomputable section

open scoped BigOperators

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Spec (biasNormalize)

theorem hz : (![0, 0] : Fin 2 → Nat) = fun _ => 0 := funext fun a => by fin_cases a <;> rfl

/-- A row with the bias added, divided by its length: the common value of both sides at an entry, for a row `r` of 32
    entries and the bias row `b`. -/
def normEntry (r b : Fin 32 → EReal) (q : Fin 32) : EReal :=
  Ideal.div (r q + b q)
    (max (Ideal.sqrt (∑ k : Fin 32, (r k + b k) * (r k + b k))) (Ideal.ofBits .f32 0x2B8CBCCC#32))

/-! ## The pointwise operations and the two row sums, read at an index -/

/-- The host's quotient at an index is the quotient of the elements. -/
theorem hostDivf_apply {s : Shape} {φ : FTy} (a b : FVec Ideal s φ) (i : s.Idx) : Host.divf a b i = Ideal.div (a i) (b i) := rfl
/-- The host's square root at an index is the square root of the element. -/
theorem hostSqrt_apply {s : Shape} {φ : FTy} (a : FVec Ideal s φ) (i : s.Idx) : Host.sqrt a i = Ideal.sqrt (a i) := rfl
/-- The vector unit's square root at an index is the square root of the element. -/
theorem sqrt_apply {s : Shape} {φ : FTy} (a : FVec Ideal s φ) (i : s.Idx) : sqrt a i = Ideal.sqrt (a i) := rfl

/-- The block's lane sum at row `p`: the sum of the row's 32 entries. -/
theorem laneSum_apply (y : FVec Ideal S10000x32 .f32) (h : S10000x32.Reduces [1] S10000) (hφ : FKind.Formats .f32)
    (hacc : (0x00000000#32 : BitVec 32) = 0x00000000#32) (p : Fin 10000) :
    multiReduction .add [1] S10000 y 0x00000000#32 h hφ hacc (ix1 p) = ∑ k : Fin 32, y (ix2 p k) := by
  refine (Ideal.multiReduction_add_single y 0x00000000#32 h hφ hacc (ix1 p)).trans ?_
  exact Finset.sum_congr rfl fun k _ =>
    congrArg y (funext fun a => Fin.ext (by match a with | ⟨0, _⟩ => rfl | ⟨1, _⟩ => rfl))

/-- The host's row sum from the initial value 0, at row `n`: the sum of the row's 32 entries. -/
theorem hostRowSum_apply (y : FVec Ideal Cert.ReferenceIdeal.S100000x32 .f32) (n : Fin 100000) :
    Host.reduceAdd y (constant (F := Ideal) Cert.ReferenceIdeal.S_ .f32 0x00000000#32)
        Cert.ReferenceIdeal.Gen.reducesTo_S100000x32_S100000_d1 Cert.ReferenceIdeal.Gen.h_S_ (ix1 n)
      = ∑ k : Fin 32, y (ix2 n k) := by
  simp only [Host.reduceAdd, Ideal.hostReduceAdd_def]
  rw [Ideal.hostReduceAdd_single Cert.ReferenceIdeal.Gen.reducesTo_S100000x32_S100000_d1 (by decide)]
  rw [constant_apply, Ideal.ofBits_zero_f32, zero_add]
  exact Finset.sum_congr rfl fun k _ =>
    congrArg y (funext fun a => Fin.ext (by match a with | ⟨0, _⟩ => rfl | ⟨1, _⟩ => rfl))

/-- A row of the first array with the row of biases added, at an entry. -/
theorem hostBiased_apply (X : FVec Ideal Cert.ReferenceIdeal.S100000x32 .f32) (B : FVec Ideal Cert.ReferenceIdeal.S1x32 .f32)
    (h : Cert.ReferenceIdeal.S1x32.BroadcastsInDim Cert.ReferenceIdeal.S100000x32 (![0, 1] : Fin 2 → Fin Cert.ReferenceIdeal.S100000x32.rank))
    (n : Fin 100000) (k : Fin 32) :
    addf X (broadcastInDim Cert.ReferenceIdeal.S100000x32 ![0, 1] h B) (ix2 n k) = X (ix2 n k) + B (ix2 (0 : Fin 1) k) := by
  rw [addf_apply, Cert.LibColumnLayout.broadcastInDim_1b_ab_apply]

/-- The whole-array stage at an entry. -/
theorem biasNormalize_apply (X : FVec Ideal S100000x32 .f32) (B : FVec Ideal S1x32 .f32) (n : Fin 100000) (q : Fin 32) :
    biasNormalize (F := Ideal) X B (ix2 n q) = normEntry (fun k => X (ix2 n k)) (fun k => B (ix2 (0 : Fin 1) k)) q := by
  unfold biasNormalize
  rw [hostDivf_apply, addf_apply, Cert.LibColumnLayout.broadcastInDim_1b_ab_apply,
    Cert.LibColumnLayout.broadcastInDim_a1_ab_apply, maximumf_apply, hostSqrt_apply,
    Cert.LibColumnLayout.broadcastInDim_a_a1_apply, hostRowSum_apply,
    broadcastInDim_apply _ _ _ (ix2 n (0 : Fin 1)) ix0 (fun a => a.elim0), constant_apply]
  unfold normEntry
  refine congrArg (fun z => Ideal.div (X (ix2 n q) + B (ix2 (0 : Fin 1) q)) (max (Ideal.sqrt z) (Ideal.ofBits .f32 0x2B8CBCCC#32)))
    (Finset.sum_congr rfl fun k _ => ?_)
  rw [mulf_apply, hostBiased_apply]

/-- The body's payload at an entry of the block. -/
theorem pay_apply (x0 : Vec Ideal S10000x32 .f32) (x1 : Vec Ideal S1x32 .f32) (p : Fin 10000) (q : Fin 32) :
    k3_pay1 x0 x1 (ix2 p q) = normEntry (fun k => x0 (ix2 p k)) (fun k => x1 (ix2 (0 : Fin 1) k)) q := by
  unfold k3_pay1
  simp only [shapeCast_self]
  rw [divf_apply, addf_apply, broadcastTo_1b_ab_apply, Cert.LibColumnLayout.broadcastTo_a1_ab_apply, maximumf_apply,
    sqrt_apply, Cert.LibColumnLayout.shapeCast_a_a1_apply, laneSum_apply, broadcast_apply]
  simp only [mulf_apply, addf_apply, broadcastTo_1b_ab_apply]
  rfl

/-- Entry (p, q) of a block's payload against entry (n, q) of the whole-array stage. -/
theorem entry_core (X : FVec Ideal S100000x32 .f32) (B : FVec Ideal S1x32 .f32) (x0 : Vec Ideal S10000x32 .f32) (x1 : Vec Ideal S1x32 .f32)
    (p : Fin 10000) (n : Fin 100000) (q : Fin 32) (h0 : ∀ q : Fin 32, x0 (ix2 p q) = X (ix2 n q))
    (h1 : ∀ q : Fin 32, x1 (ix2 (0 : Fin 1) q) = B (ix2 (0 : Fin 1) q)) :
    k3_pay1 x0 x1 (ix2 p q) = biasNormalize (F := Ideal) X B (ix2 n q) := by
  rw [pay_apply, biasNormalize_apply]
  simp only [h0, h1]

/-- The region's index maps, decided once over its ten points: the input block and the output block move together down
    the rows, the row of biases stays where it is. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- One entry of a block against one entry of the whole-array stage: equal as soon as the block's entry of the first
    input is the array's entry, the columns agree, and the row of biases is the array's row. -/
theorem entry_eq (X : FVec Ideal S100000x32 .f32) (B : FVec Ideal S1x32 .f32) (x0 : Vec Ideal S10000x32 .f32) (x1 : Vec Ideal S1x32 .f32)
    (j : S10000x32.Idx) (i : S100000x32.Idx) (h0 : ∀ q : Fin 32, x0 (ix2 (j 0) q) = X (ix2 (i 0) q)) (hq : (i 1).val = (j 1).val)
    (h1 : ∀ q : Fin 32, x1 (ix2 (0 : Fin 1) q) = B (ix2 (0 : Fin 1) q)) :
    k3_pay1 x0 x1 j = biasNormalize (F := Ideal) X B i := by
  obtain ⟨p, q, rfl⟩ : ∃ (p : Fin 10000) (q : Fin 32), j = ix2 p q := ⟨j 0, j 1, eq_ix2 j⟩
  obtain ⟨n, q', rfl⟩ : ∃ (n : Fin 100000) (q' : Fin 32), i = ix2 n q' := ⟨i 0, i 1, eq_ix2 i⟩
  have hqq : q' = q := Fin.ext hq
  subst hqq
  exact entry_core X B x0 x1 p n q' h0 h1

/-- What a point writes back is its block of the whole-array stage of the two input arrays. -/
theorem flushed_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (biasNormalize (F := Ideal) (V c main_v61) (V c main_v62)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨e0, e1, e2, e3, e4, e5⟩ := idx_facts t
  funext j
  refine entry_eq (V c main_v61) (V c main_v62) (iblk3 V c 0 t) (iblk3 V c 1 t) j (((cfg3.win 2).blk t).view.emb j) ?_ ?_ ?_
  · intro q
    show V c main_v61 (((cfg3.win 0).blk t).view.emb (ix2 (j 0) q)) = V c main_v61 (ix2 ((((cfg3.win 2).blk t).view.emb j) 0) q)
    refine congrArg (V c main_v61) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * q.val = q.val; omega
  · show win3_2.index t (1 : Fin 2) * 32 + 1 * (j 1).val = (j 1).val; omega
  · intro q
    show V c main_v62 (((cfg3.win 1).blk t).view.emb (ix2 (0 : Fin 1) q)) = V c main_v62 (ix2 (0 : Fin 1) q)
    refine congrArg (V c main_v62) (funext fun a => Fin.ext ?_)
    match a with
    | ⟨0, _⟩ => show win3_1.index t (0 : Fin 2) * 1 + 1 * 0 = 0; omega
    | ⟨1, _⟩ => show win3_1.index t (1 : Fin 2) * 32 + 1 * q.val = q.val; omega

/-- An index of the output array is in a point's block iff each coordinate is in the block's range. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v63).slice (win3_2.rect t)).set ↔ _
  rw [View.set_slice_whole, Rect.mem_set_unit]
  exact Iff.rfl

/-- Row r is in the block of the point that handles rows 10000 * (r / 10000) onwards: the ten blocks cover the array. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- THE OUTPUT ARRAY after the region is the whole-array stage of the two input arrays as the region found them. -/
theorem arr (V : (c : Dev nD) → (b : Ref sig .tc) → Buf (Elt Ideal) ((c : Thread nD τ).loc b)) (c : Dev nD) :
    (dat3 (F := Ideal) V c).arrAt 2 cfg3.N = biasNormalize (F := Ideal) (V c main_v61) (V c main_v62) :=
  (dat3 V c).arrAt_eq_of_cover 2 _ (fun t _ => flushed_eq V c t) cover

end Cert.KernelIdeal.Region3

end
-- ==== Proof.KFold.lean ====
import proofs.«179540_j13657996001410_1_alg».proof.Proof.Gen.KernelIdeal.Frame
import proofs.«179540_j13657996001410_1_alg».proof.Proof.Spec
import proofs.«179540_j13657996001410_1_alg».proof.Proof.KHost
import proofs.«179540_j13657996001410_1_alg».proof.Proof.RegionMM
import proofs.«179540_j13657996001410_1_alg».proof.Proof.Region1
import proofs.«179540_j13657996001410_1_alg».proof.Proof.Region3
import proofs.«179540_j13657996001410_1_alg».proof.Proof.LibMatmulRows

/-!
# What the kernel program leaves in its result array

The kernel program's nine segments, followed from the launch memory to the result buffer. The edge lists and the per-edge
coefficient are built once, before the first region, and no later segment writes them. The first region leaves the
product of the node features with the first weight matrix; the next stretch one round of message passing on it; the
second region adds the bias and takes the positive part; the third multiplies by the second weight matrix; the next
stretch is the second round of message passing; the fourth region adds the bias and normalises every row. So the result
array holds the two-layer graph convolution `gcn` of the seven arguments.
-/

set_option maxRecDepth 16384

noncomputable section

namespace Cert.KernelIdeal.KFold

open Cert.KernelIdeal Cert.KernelIdeal.Gen
open Idealize.ShloMosaic Idealize.ShloMosaic.TcCoe Idealize.SL.Sem
open Cert.ReferenceIdeal.Spec Cert.LibMatmulRows Cert.KernelIdeal.KHost

/-- The two-layer graph convolution of the seven arguments: the edge list, the edge weights, the node features, and
    each layer's weight matrix and bias; both products as whole-array sums, each bias laid out as one row. -/
def gcn (ei : (⟨S2x3200000, .i32⟩ : BufTy).Contents (Elt Ideal)) (ew : (⟨S3200000, .f32⟩ : BufTy).Contents (Elt Ideal))
    (emb : (⟨S100000x64, .f32⟩ : BufTy).Contents (Elt Ideal)) (w1 : (⟨S64x64, .f32⟩ : BufTy).Contents (Elt Ideal))
    (b1 : (⟨S64, .f32⟩ : BufTy).Contents (Elt Ideal)) (w2 : (⟨S64x32, .f32⟩ : BufTy).Contents (Elt Ideal))
    (b2 : (⟨S32, .f32⟩ : BufTy).Contents (Elt Ideal)) : (⟨S100000x32, .f32⟩ : BufTy).Contents (Elt Ideal) :=
  biasNormalize (F := Ideal)
    (agg32 (F := Ideal)
      (mmRows (N := 100000) (K := 64) (M := 32)
        (biasRelu (F := Ideal)
          (agg64 (F := Ideal) (mmRows (N := 100000) (K := 64) (M := 64) emb w1) (colIdx ei) (wrapIdx (rowIdx ei))
            (edgeCoef (invSqrtDeg (degOf (colIdx ei) (ewF ew))) (wrapIdx (rowIdx ei)) (ewF ew) (wrapIdx (colIdx ei))))
          (shapeCast S1x64 b1 shapeCasts_S64_S1x64))
        w2)
      (colIdx ei) (wrapIdx (rowIdx ei))
      (edgeCoef (invSqrtDeg (degOf (colIdx ei) (ewF ew))) (wrapIdx (rowIdx ei)) (ewF ew) (wrapIdx (colIdx ei))))
    (shapeCast S1x32 b2 shapeCasts_S32_S1x32)

variable (m : (ℓ : Loc nD τ sig) → Buf (Elt Ideal) ℓ) (ρ : Dev nD → PrngReg) (c : Dev nD)

/-! ## The edge lists and the coefficient, carried unchanged to every later boundary -/

theorem row4 : W4 m ρ c (Proc.devRef .tc main_v5) = rowIdx (m ((c : Thread nD τ).loc main_arg0)) :=
  (W4_of_ne m ρ c main_v5 (by decide)).trans (pre_rowIdx m ρ c)
theorem col4 : W4 m ρ c (Proc.devRef .tc main_v6) = colIdx (m ((c : Thread nD τ).loc main_arg0)) :=
  (W4_of_ne m ρ c main_v6 (by decide)).trans (pre_colIdx m ρ c)
theorem coef4 : W4 m ρ c (Proc.devRef .tc main_v31) = (edgeCoef (invSqrtDeg (degOf (colIdx (m ((c : Thread nD τ).loc main_arg0))) (ewF (m ((c : Thread nD τ).loc main_arg1))))) (wrapIdx (rowIdx (m ((c : Thread nD τ).loc main_arg0)))) (ewF (m ((c : Thread nD τ).loc main_arg1))) (wrapIdx (colIdx (m ((c : Thread nD τ).loc main_arg0))))) :=
  (W4_of_ne m ρ c main_v31 (by decide)).trans (pre_coef m ρ c)

theorem row7 : W7 m ρ c (Proc.devRef .tc main_v5) = rowIdx (m ((c : Thread nD τ).loc main_arg0)) :=
  (W7_of_ne m ρ c main_v5 (by decide)).trans ((W6_of_ne m ρ c main_v5 (by decide)).trans ((mid_keep_v5 m ρ c).trans (row4 m ρ c)))
theorem col7 : W7 m ρ c (Proc.devRef .tc main_v6) = colIdx (m ((c : Thread nD τ).loc main_arg0)) :=
  (W7_of_ne m ρ c main_v6 (by decide)).trans ((W6_of_ne m ρ c main_v6 (by decide)).trans ((mid_keep_v6 m ρ c).trans (col4 m ρ c)))
theorem coef7 : W7 m ρ c (Proc.devRef .tc main_v31) = (edgeCoef (invSqrtDeg (degOf (colIdx (m ((c : Thread nD τ).loc main_arg0))) (ewF (m ((c : Thread nD τ).loc main_arg1))))) (wrapIdx (rowIdx (m ((c : Thread nD τ).loc main_arg0)))) (ewF (m ((c : Thread nD τ).loc main_arg1))) (wrapIdx (colIdx (m ((c : Thread nD τ).loc main_arg0))))) :=
  (W7_of_ne m ρ c main_v31 (by decide)).trans ((W6_of_ne m ρ c main_v31 (by decide)).trans ((mid_keep_v31 m ρ c).trans (coef4 m ρ c)))

/-! ## The arguments, where a segment reads them -/

theorem bias1_4 : W4 m ρ c (Proc.devRef .tc main_arg4) = m ((c : Thread nD τ).loc main_arg4) :=
  (W4_of_ne m ρ c main_arg4 (by decide)).trans (pre_arg4 m ρ c)
theorem w2_6 : W6 m ρ c (Proc.devRef .tc main_arg5) = m ((c : Thread nD τ).loc main_arg5) :=
  (W6_of_ne m ρ c main_arg5 (by decide)).trans ((mid_keep_arg5 m ρ c).trans ((W4_of_ne m ρ c main_arg5 (by decide)).trans (pre_arg5 m ρ c)))
theorem bias2_7 : W7 m ρ c (Proc.devRef .tc main_arg6) = m ((c : Thread nD τ).loc main_arg6) :=
  (W7_of_ne m ρ c main_arg6 (by decide)).trans ((W6_of_ne m ρ c main_arg6 (by decide)).trans ((mid_keep_arg6 m ρ c).trans
    ((W4_of_ne m ρ c main_arg6 (by decide)).trans (pre_arg6 m ρ c))))

/-! ## Segment by segment -/

/-- After the first region: the product of the node features with the first weight matrix. -/
theorem proj1 : W4 m ρ c (Proc.devRef .tc main_v32) = mmRows (N := 100000) (K := 64) (M := 64) (m ((c : Thread nD τ).loc main_arg2)) (m ((c : Thread nD τ).loc main_arg3)) := by
  refine (W4_arr m ρ c 2).trans ((Cert.KernelIdeal.RegionMM.arr0 (V3 m ρ) c).trans ?_)
  show mmRows (W3 m ρ c (Proc.devRef .tc main_arg2)) (W3 m ρ c (Proc.devRef .tc main_arg3)) = _
  rw [pre_arg2, pre_arg3]

/-- After the first round of message passing. -/
theorem agg1 : W5 m ρ c (Proc.devRef .tc main_v45)
    = agg64 (F := Ideal) (mmRows (N := 100000) (K := 64) (M := 64) (m ((c : Thread nD τ).loc main_arg2)) (m ((c : Thread nD τ).loc main_arg3))) (colIdx (m ((c : Thread nD τ).loc main_arg0))) (wrapIdx (rowIdx (m ((c : Thread nD τ).loc main_arg0)))) (edgeCoef (invSqrtDeg (degOf (colIdx (m ((c : Thread nD τ).loc main_arg0))) (ewF (m ((c : Thread nD τ).loc main_arg1))))) (wrapIdx (rowIdx (m ((c : Thread nD τ).loc main_arg0)))) (ewF (m ((c : Thread nD τ).loc main_arg1))) (wrapIdx (colIdx (m ((c : Thread nD τ).loc main_arg0))))) := by
  rw [mid_agg, proj1, col4, row4, coef4]

theorem biasRow1 : W5 m ρ c (Proc.devRef .tc main_v46) = shapeCast S1x64 (m ((c : Thread nD τ).loc main_arg4)) shapeCasts_S64_S1x64 := by
  rw [mid_bias, bias1_4]

/-- After the second region: the bias added, the positive part taken. -/
theorem act1 : W6 m ρ c (Proc.devRef .tc main_v47)
    = biasRelu (F := Ideal) (W5 m ρ c (Proc.devRef .tc main_v45)) (W5 m ρ c (Proc.devRef .tc main_v46)) :=
  (W6_arr m ρ c 2).trans (Cert.KernelIdeal.Region1.arr (V5 m ρ) c)

/-- After the third region: the product with the second weight matrix. -/
theorem proj2 : W7 m ρ c (Proc.devRef .tc main_v48)
    = mmRows (N := 100000) (K := 64) (M := 32) (W6 m ρ c (Proc.devRef .tc main_v47)) (m ((c : Thread nD τ).loc main_arg5)) := by
  refine (W7_arr m ρ c 2).trans ((Cert.KernelIdeal.RegionMM.arr2 (V6 m ρ) c).trans ?_)
  show mmRows (W6 m ρ c (Proc.devRef .tc main_v47)) (W6 m ρ c (Proc.devRef .tc main_arg5)) = _
  rw [w2_6]

/-- After the second round of message passing. -/
theorem agg2 : W8 m ρ c (Proc.devRef .tc main_v61)
    = agg32 (F := Ideal) (W7 m ρ c (Proc.devRef .tc main_v48)) (colIdx (m ((c : Thread nD τ).loc main_arg0))) (wrapIdx (rowIdx (m ((c : Thread nD τ).loc main_arg0)))) (edgeCoef (invSqrtDeg (degOf (colIdx (m ((c : Thread nD τ).loc main_arg0))) (ewF (m ((c : Thread nD τ).loc main_arg1))))) (wrapIdx (rowIdx (m ((c : Thread nD τ).loc main_arg0)))) (ewF (m ((c : Thread nD τ).loc main_arg1))) (wrapIdx (colIdx (m ((c : Thread nD τ).loc main_arg0))))) := by
  rw [last_agg, col7, row7, coef7]

theorem biasRow2 : W8 m ρ c (Proc.devRef .tc main_v62) = shapeCast S1x32 (m ((c : Thread nD τ).loc main_arg6)) shapeCasts_S32_S1x32 := by
  rw [last_bias, bias2_7]

/-- After the fourth region: the bias added, every row normalised. -/
theorem out : W9 m ρ c (Proc.devRef .tc main_v63)
    = biasNormalize (F := Ideal) (W8 m ρ c (Proc.devRef .tc main_v61)) (W8 m ρ c (Proc.devRef .tc main_v62)) :=
  (W9_arr m ρ c 2).trans (Cert.KernelIdeal.Region3.arr (V8 m ρ) c)

/-- THE RESULT ARRAY of the kernel program is the two-layer graph convolution of its arguments. -/
theorem result : W9 m ρ c (Proc.devRef .tc main_v63)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [out, agg2, biasRow2, proj2, act1, agg1, biasRow1]
  rfl

end Cert.KernelIdeal.KFold

end
-- ==== Proof.RefSide.lean ====
import proofs.«179540_j13657996001410_1_alg».proof.Proof.Gen.ReferenceIdeal.Run
import proofs.«179540_j13657996001410_1_alg».proof.Proof.Spec

/-!
# The reference's result, stage by stage

The reference computes, from the launch contents of its seven arguments: the two rounds of message passing of the
graph convolution, the first on the product of the node features with the first weight matrix, followed by the bias and
the positive part; the second on the product of that with the second weight matrix, followed by the bias and the row
normalisation. Its result term is exactly that composition of the named stages.
-/

set_option maxRecDepth 16384

noncomputable section

namespace Cert.ReferenceIdeal.RefSide

open Cert.ReferenceIdeal Cert.ReferenceIdeal.Gen Cert.ReferenceIdeal.Value Cert.ReferenceIdeal.Spec
open Idealize.ShloMosaic Idealize.ShloMosaic.TcCoe Idealize.SL.Sem Idealize.ShloMosaic.StableHlo

variable {F : FTy → Type} [FloatOps F]

/-- The reference's result is the composition of the stages, the two products being the host's. -/
theorem result_eq (m : (ℓ : Loc nD τ sig) → Buf (Elt F) ℓ) (c : Dev nD) :
    res_main_v71 m c = (biasNormalize (agg32 (Host.dotGeneral dot_S100000x64_S64x32_S100000x32_1_0_0_1_n_n none (biasRelu (agg64 (Host.dotGeneral dot_S100000x64_S64x64_S100000x64_1_0_0_1_n_n none (m ((c.tc : Thread nD τ).loc main_arg2)) (m ((c.tc : Thread nD τ).loc main_arg3))) (colIdx (m ((c.tc : Thread nD τ).loc main_arg0))) (wrapIdx (rowIdx (m ((c.tc : Thread nD τ).loc main_arg0)))) (edgeCoef (invSqrtDeg (degOf (colIdx (m ((c.tc : Thread nD τ).loc main_arg0))) (ewF (m ((c.tc : Thread nD τ).loc main_arg1))))) (wrapIdx (rowIdx (m ((c.tc : Thread nD τ).loc main_arg0)))) (ewF (m ((c.tc : Thread nD τ).loc main_arg1))) (wrapIdx (colIdx (m ((c.tc : Thread nD τ).loc main_arg0)))))) (broadcastInDim S1x64 ![1] bcast_S64_S1x64_1 (m ((c.tc : Thread nD τ).loc main_arg4)))) (m ((c.tc : Thread nD τ).loc main_arg5))) (colIdx (m ((c.tc : Thread nD τ).loc main_arg0))) (wrapIdx (rowIdx (m ((c.tc : Thread nD τ).loc main_arg0)))) (edgeCoef (invSqrtDeg (degOf (colIdx (m ((c.tc : Thread nD τ).loc main_arg0))) (ewF (m ((c.tc : Thread nD τ).loc main_arg1))))) (wrapIdx (rowIdx (m ((c.tc : Thread nD τ).loc main_arg0)))) (ewF (m ((c.tc : Thread nD τ).loc main_arg1))) (wrapIdx (colIdx (m ((c.tc : Thread nD τ).loc main_arg0)))))) (broadcastInDim S1x32 ![1] bcast_S32_S1x32_1 (m ((c.tc : Thread nD τ).loc main_arg6)))) := by
  unfold res_main_v71 biasNormalize agg32 biasRelu agg64 edgeCoef invSqrtDeg degOf wrapIdx ewF colIdx rowIdx
  rfl

end Cert.ReferenceIdeal.RefSide

end
-- ==== Proof.Bridge.lean ====
import proofs.«179540_j13657996001410_1_alg».proof.Proof.RefSide
import proofs.«179540_j13657996001410_1_alg».proof.Proof.KFold
import proofs.«179540_j13657996001410_1_alg».proof.Proof.LibMatmulRows
import proofs.«179540_j13657996001410_1_alg».proof.Proof.LibColumnLayout
import Idealize.ShloMosaic.Lib.ValueLayout

/-!
# The reference computes the same graph convolution

Stage by stage the reference differs from the kernel program in two places only. Its two matrix products are the host's
`dot_general`, which over the extended reals is the same whole-array sum of products. And it lays each bias vector out
as a row by a broadcast where the kernel program reshapes it: both rows hold the vector's entries in order. Everything
else is one and the same composition of stages.
-/

set_option maxRecDepth 16384

noncomputable section

namespace Cert.ReferenceIdeal.Bridge

open Idealize.ShloMosaic Idealize.ShloMosaic.TcCoe Idealize.SL.Sem Idealize.ShloMosaic.ValueIdx
open Cert.LibMatmulRows

/-- The host's product of the node features with the first weight matrix is the whole-array sum of products. -/
theorem dot1_eq (A : FVec Ideal Cert.ReferenceIdeal.S100000x64 .f32) (B : FVec Ideal Cert.ReferenceIdeal.S64x64 .f32) :
    Host.dotGeneral (F := Ideal) Cert.ReferenceIdeal.dot_S100000x64_S64x64_S100000x64_1_0_0_1_n_n none A B
      = mmRows (N := 100000) (K := 64) (M := 64) A B :=
  dotGeneralRows_eq _ none .single A B

/-- The same for the second weight matrix. -/
theorem dot2_eq (A : FVec Ideal Cert.ReferenceIdeal.S100000x64 .f32) (B : FVec Ideal Cert.ReferenceIdeal.S64x32 .f32) :
    Host.dotGeneral (F := Ideal) Cert.ReferenceIdeal.dot_S100000x64_S64x32_S100000x32_1_0_0_1_n_n none A B
      = mmRows (N := 100000) (K := 64) (M := 32) A B :=
  dotGeneralRows_eq _ none .single A B

/-- A vector of 64 entries broadcast onto the second axis of a one-row matrix is the vector reshaped to one row. -/
theorem row64_eq (b : FVec Ideal Cert.ReferenceIdeal.S64 .f32) :
    broadcastInDim Cert.ReferenceIdeal.S1x64 ![1] Cert.ReferenceIdeal.Gen.bcast_S64_S1x64_1 b
      = shapeCast Cert.KernelIdeal.S1x64 b Cert.KernelIdeal.Gen.shapeCasts_S64_S1x64 := by
  funext i
  obtain ⟨u, q, rfl⟩ : ∃ (u : Fin 1) (q : Fin 64), i = ix2 u q := ⟨i 0, i 1, eq_ix2 i⟩
  rw [Cert.LibColumnLayout.broadcastInDim_b_1b_apply, shapeCast_a_1a_apply]

/-- The same for 32 entries. -/
theorem row32_eq (b : FVec Ideal Cert.ReferenceIdeal.S32 .f32) :
    broadcastInDim Cert.ReferenceIdeal.S1x32 ![1] Cert.ReferenceIdeal.Gen.bcast_S32_S1x32_1 b
      = shapeCast Cert.KernelIdeal.S1x32 b Cert.KernelIdeal.Gen.shapeCasts_S32_S1x32 := by
  funext i
  obtain ⟨u, q, rfl⟩ : ∃ (u : Fin 1) (q : Fin 32), i = ix2 u q := ⟨i 0, i 1, eq_ix2 i⟩
  rw [Cert.LibColumnLayout.broadcastInDim_b_1b_apply, shapeCast_a_1a_apply]

/-- THE REFERENCE'S RESULT is the two-layer graph convolution of its arguments. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v71 (F := Ideal) m' c
      = Cert.KernelIdeal.KFold.gcn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  rw [Cert.ReferenceIdeal.RefSide.result_eq, dot1_eq, row64_eq, dot2_eq, row32_eq]
  rfl

end Cert.ReferenceIdeal.Bridge

end
-- ==== Proof.lean ====
import proofs.«179540_j13657996001410_1_alg».proof.Defs
import proofs.«179540_j13657996001410_1_alg».proof.Proof.Gen.Kernel
import proofs.«179540_j13657996001410_1_alg».proof.Proof.Gen.Kernel.Frame
import proofs.«179540_j13657996001410_1_alg».proof.Proof.Gen.KernelIdeal
import proofs.«179540_j13657996001410_1_alg».proof.Proof.Gen.KernelIdeal.Frame
import proofs.«179540_j13657996001410_1_alg».proof.Proof.Gen.ReferenceIdeal
import proofs.«179540_j13657996001410_1_alg».proof.Proof.Gen.ReferenceIdeal.Run
import proofs.«179540_j13657996001410_1_alg».proof.Proof.Gen.Pre_finite_inputs
import proofs.«179540_j13657996001410_1_alg».proof.Proof.KRun
import proofs.«179540_j13657996001410_1_alg».proof.Proof.KFold
import proofs.«179540_j13657996001410_1_alg».proof.Proof.Bridge
import Idealize.ShloMosaic.Adequacy
import Idealize.ShloMosaic.Init

/-!
# A two-layer graph convolution: four tiled kernel regions against the plain array program

Both programs compute, from an edge list with weights, node features, and two layers' weights and biases: the symmetric
normalisation coefficient of every edge (self-loops added), then twice a linear projection of the node rows followed by
message passing along the edges (gather the source's row, scale it by the edge's coefficient, sum per target), the first
layer ending in a bias and the positive part, the second in a bias and a division of every row by its Euclidean length.
The kernel program runs the two projections and the two bias stages as row-tiled regions of ten blocks each, with the
same host operations as the reference in between. Over the extended reals a tiled product is the whole product, a
block of a row-wise stage is the stage's block, and a product in reduced precision is the product, so the two results
are one function of the arguments; no finiteness of the inputs is used, since no law beyond regrouping sums is needed.
-/

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing: there is nothing to preserve. -/
theorem preserves : Cert.preserves_Kernel_KernelIdeal := trivial

/-- From memories that agree on the arguments both programs end with the two-layer graph convolution of those
    arguments in their result arrays. -/
theorem algebraic : Cert.algebraic_KernelIdeal_ReferenceIdeal := by
  intro m ρ m' ρ' _ hagree
  refine ⟨fun c => Cert.KernelIdeal.KFold.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KFold.result m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Bridge.ref_value, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
